-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S167772 : Shape := ⟨1, ![167772]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S167772 : S_.BroadcastsInDim S167772 (![] : Fin 0 → Fin S167772.rank)
  reducesTo_S167772_S_d0 : S167772.ReducesTo [0] S_

variable [Facts]

def fn_part1 {F : FTy → Type} [FloatOps F] (main_v13 : IVec S_ 1) (main_v16 : IVec S167772 1) : IVec S_ 1 :=
  let main_c_5 : IVec S_ 1 := constantI S_ 1 1#1
  let main_v17 : IVec S_ 1 := (fun x v => Host.reduce IntOp.andi x v reducesTo_S167772_S_d0 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S167772 .f32) (main_arg4 : IVec S167772 32) (main_arg5 : IVec S167772 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S167772 .f32 := Host.absf main_arg3
  let main_cst_4 : FVec F S_ .f32 := constant S_ .f32 0x7F800000#32
  let main_v15 : FVec F S167772 .f32 := broadcastInDim S167772 ![] bcast_S_S167772 main_cst_4
  let main_v16 : IVec S167772 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S167772 : Shape := ⟨1, ![167772]⟩
abbrev S_ : Shape := ⟨0, ![]⟩
abbrev S167772x1 : Shape := ⟨2, ![167772, 1]⟩
abbrev S167772x2 : Shape := ⟨2, ![167772, 2]⟩
abbrev S8192x4096 : Shape := ⟨2, ![8192, 4096]⟩
abbrev S1x4096 : Shape := ⟨2, ![1, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 34
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S167772, .f32⟩
  | .hbm, ⟨4, _⟩ => ⟨S167772, .i32⟩
  | .hbm, ⟨5, _⟩ => ⟨S167772, .i32⟩
  | .hbm, ⟨6, _⟩ => ⟨S_, .f32⟩
  | .hbm, ⟨7, _⟩ => ⟨S4096x4096, .f32⟩
  | .hbm, ⟨8, _⟩ => ⟨S_, .i32⟩
  | .hbm, ⟨9, _⟩ => ⟨S167772, .i32⟩
  | .hbm, ⟨10, _⟩ => ⟨S167772, .i1⟩
  | .hbm, ⟨11, _⟩ => ⟨S_, .i32⟩
  | .hbm, ⟨12, _⟩ => ⟨S167772, .i32⟩
  | .hbm, ⟨13, _⟩ => ⟨S167772, .i32⟩
  | .hbm, ⟨14, _⟩ => ⟨S167772, .i32⟩
  | .hbm, ⟨15, _⟩ => ⟨S_, .i32⟩
  | .hbm, ⟨16, _⟩ => ⟨S167772, .i32⟩
  | .hbm, ⟨17, _⟩ => ⟨S167772, .i1⟩
  | .hbm, ⟨18, _⟩ => ⟨S_, .i32⟩
  | .hbm, ⟨19, _⟩ => ⟨S167772, .i32⟩
  | .hbm, ⟨20, _⟩ => ⟨S167772, .i32⟩
  | .hbm, ⟨21, _⟩ => ⟨S167772, .i32⟩
  | .hbm, ⟨22, _⟩ => ⟨S167772x1, .i32⟩
  | .hbm, ⟨23, _⟩ => ⟨S167772x1, .i32⟩
  | .hbm, ⟨24, _⟩ => ⟨S167772x2, .i32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .bf16⟩
  | .hbm, ⟨29, _⟩ => ⟨S8192x4096, .f32⟩
  | .hbm, ⟨30, _⟩ => ⟨S8192x4096, .bf16⟩
  | .hbm, ⟨31, _⟩ => ⟨S1x4096, .f32⟩
  | .hbm, ⟨32, _⟩ => ⟨S8192x4096, .f32⟩
  | .hbm, ⟨33, _⟩ => ⟨S4x2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S_S167772 : S_.BroadcastsInDim S167772 (![] : Fin 0 → Fin S167772.rank)
  bcast_S167772_S167772x1_0 : S167772.BroadcastsInDim S167772x1 (![0] : Fin 1 → Fin S167772x1.rank)
  concatenates_S167772x1_S167772x1_S167772x2_d1 : Shape.Concatenates [S167772x1, S167772x1] S167772x2 1
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  scatter_S4096x4096_S167772x2_S167772_n_01_01_1_wf : ScatterDims.WF S4096x4096 S167772x2 S167772 [] [0, 1] [0, 1] 1
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x4096.size a
  hwx0_1 : ∀ i : grid0.Coords, EltTy.bits .bf16 = 32 ∨ (Rect.block (s := S4096x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def scatter_S4096x4096_S167772x2_S167772_n_01_01_1 : ScatterDims S4096x4096 S167772x2 S167772 where
  updateWindowDims := []
  insertedWindowDims := [0, 1]
  scatterDimsToOperandDims := [0, 1]
  indexVectorDim := 1
  wf := scatter_S4096x4096_S167772x2_S167772_n_01_01_1_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v19) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S167772 : Shape := ⟨1, ![167772]⟩
abbrev S1x1x4096 : Shape := ⟨3, ![1, 1, 4096]⟩
abbrev S_ : Shape := ⟨0, ![]⟩
abbrev S167772x1 : Shape := ⟨2, ![167772, 1]⟩
abbrev S167772x2 : Shape := ⟨2, ![167772, 2]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S167772, .f32⟩
  | .hbm, ⟨4, _⟩ => ⟨S167772, .i32⟩
  | .hbm, ⟨5, _⟩ => ⟨S167772, .i32⟩
  | .hbm, ⟨6, _⟩ => ⟨S4x2048x4096, .f32⟩
  | .hbm, ⟨7, _⟩ => ⟨S1x1x4096, .f32⟩
  | .hbm, ⟨8, _⟩ => ⟨S4x2048x4096, .f32⟩
  | .hbm, ⟨9, _⟩ => ⟨S4x2048x4096, .f32⟩
  | .hbm, ⟨10, _⟩ => ⟨S_, .f32⟩
  | .hbm, ⟨11, _⟩ => ⟨S4096x4096, .f32⟩
  | .hbm, ⟨12, _⟩ => ⟨S_, .i32⟩
  | .hbm, ⟨13, _⟩ => ⟨S167772, .i32⟩
  | .hbm, ⟨14, _⟩ => ⟨S167772, .i1⟩
  | .hbm, ⟨15, _⟩ => ⟨S_, .i32⟩
  | .hbm, ⟨16, _⟩ => ⟨S167772, .i32⟩
  | .hbm, ⟨17, _⟩ => ⟨S167772, .i32⟩
  | .hbm, ⟨18, _⟩ => ⟨S167772, .i32⟩
  | .hbm, ⟨19, _⟩ => ⟨S_, .i32⟩
  | .hbm, ⟨20, _⟩ => ⟨S167772, .i32⟩
  | .hbm, ⟨21, _⟩ => ⟨S167772, .i1⟩
  | .hbm, ⟨22, _⟩ => ⟨S_, .i32⟩
  | .hbm, ⟨23, _⟩ => ⟨S167772, .i32⟩
  | .hbm, ⟨24, _⟩ => ⟨S167772, .i32⟩
  | .hbm, ⟨25, _⟩ => ⟨S167772, .i32⟩
  | .hbm, ⟨26, _⟩ => ⟨S167772x1, .i32⟩
  | .hbm, ⟨27, _⟩ => ⟨S167772x1, .i32⟩
  | .hbm, ⟨28, _⟩ => ⟨S167772x2, .i32⟩
  | .hbm, ⟨29, _⟩ => ⟨S4096x4096, .f32⟩
  | .hbm, ⟨30, _⟩ => ⟨S4x2048x4096, .f32⟩
  | .hbm, ⟨31, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4096x4096 : S_.BroadcastsInDim S4096x4096 (![] : Fin 0 → Fin S4096x4096.rank)
  bcast_S_S167772 : S_.BroadcastsInDim S167772 (![] : Fin 0 → Fin S167772.rank)
  bcast_S167772_S167772x1_0 : S167772.BroadcastsInDim S167772x1 (![0] : Fin 1 → Fin S167772x1.rank)
  concatenates_S167772x1_S167772x1_S167772x2_d1 : Shape.Concatenates [S167772x1, S167772x1] S167772x2 1
  dot_S4x2048x4096_S4096x4096_S4x2048x4096_2_1_01_0_n_n_wf : DotDims.WF S4x2048x4096 S4096x4096 S4x2048x4096 [2] [1] [0, 1] [0] [] []
  scatter_S4096x4096_S167772x2_S167772_n_01_01_1_wf : ScatterDims.WF S4096x4096 S167772x2 S167772 [] [0, 1] [0, 1] 1

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def scatter_S4096x4096_S167772x2_S167772_n_01_01_1 : ScatterDims S4096x4096 S167772x2 S167772 where
  updateWindowDims := []
  insertedWindowDims := [0, 1]
  scatterDimsToOperandDims := [0, 1]
  indexVectorDim := 1
  wf := scatter_S4096x4096_S167772x2_S167772_n_01_01_1_wf

class Facts : Prop extends Facts₀ where

variable [Facts]
-- ==== Proof.Pieces.lean ====
/-
  What the kernel body leaves behind at a grid point, as values of the body's loads.

  The grid is 8 × 4 × 2; its last axis walks the two halves of the contraction. At the first half (the zeroing branch
  taken) the body stores the zero block into the accumulator, reads it back, adds the product of the two staged
  operand blocks and stores the sum: the accumulator ends at `accumulate(zero, a, b)`. At the second half (the
  write-out branch taken) it accumulates again over what the first half left, then reads the accumulator back, adds
  the staged bias row and stores that into the output block: the output block ends at
  `addBias(accumulate(acc, a, b), bias)`. Both statements hold for any float instance: they only say which stores
  cover which buffers and what each load reads.
-/
import proofs.«154665_j53566832116289_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

/-- Every access of the body is at offset (0, 0) of a whole buffer. -/
theorem hz : (![0, 0] : Fin 2 → Nat) = fun _ => 0 := funext fun a => by fin_cases a <;> rfl

/-- First half of the contraction: the accumulator is zeroed, then holds zero plus the first partial product. -/
theorem scratch_first (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S2048x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz,
    View.ld_unit_zero (S := S2048x1024) hz]

/-- Second half: the output block is (what the accumulator held, plus the second partial product) plus the bias row. -/
theorem out_second (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S2048x1024 .bf16) (x2 : Vec F S1x1024 .f32) (xs0 : Vec F S1024x1024 .f32) :
    out0_B_3 c i arg3 harg3 arg4 harg4 arg5 harg5 arg6 harg6 arg7 harg7 hc0 hc1 x0 x1 x2 xs0 = k0_pay3 (k0_pay2 xs0 x0 x1) x2 := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero hz, View.readCov_unit_zero (S := S1024x1024) _ hz]
  simp only [View.readAt_eq_ld, harg3.read_unread, harg4.read_unread, harg5.read_unread, harg7.read_unread,
    View.ld_unit_zero (S := S1024x2048) hz, View.ld_unit_zero (S := S2048x1024) hz, View.ld_unit_zero (S := S1x1024) hz,
    View.ld_unit_zero (S := S1024x1024) hz]

end Cert.KernelIdeal.Found

end
-- ==== Proof.Points.lean ====
/-
  Which staged blocks an output block is made of, and where a staged block sits in its array.

  The grid's points are numbered so that the two halves of one output block's contraction are consecutive: an even point
  is a first half, the odd point after it the second half of the same output block. After an odd point `t` the output
  block holds  addBias(accumulate(accumulate(zero, a', b'), a, b), bias)  where `a`, `b`, `bias` are the blocks staged at
  `t` and `a'`, `b'` those staged at the point before. A staged block's entry `y` is its array's entry at
  (block index × block extent + y) on each axis.
-/
import proofs.«154665_j53566832116289_1_alg».proof.Proof.Pieces
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Found

open Cert.KernelIdeal Cert.KernelIdeal.Gen

variable {F : FTy → Type} [FloatOps F]
variable (m : (ℓ : Loc nD τ sig) → Buf (Elt F) ℓ)

/-- The point before `t` in the grid's order. -/
def before (t : Fin cfg0.N) : Fin cfg0.N := ⟨t.val - 1, Nat.lt_of_le_of_lt (Nat.sub_le _ _) t.isLt⟩

theorem before_val (t : Fin cfg0.N) : (before t).val = t.val - 1 := rfl

/-- After a first-half point the accumulator holds zero plus the first partial product. -/
theorem acc_at_first_half (c : Dev nD) (t : Fin cfg0.N) (h0 : t.val % 2 = 0) (h1 : ¬t.val % 2 = 1) :
    (outsAt0 m c t.val t.isLt).2 = k0_pay2 (k0_pay1 (F := F)) (iblk m c 0 t) (iblk m c 1 t) := by
  rw [outsAt0_A m c t h0 h1]
  dsimp only
  exact scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- After a second-half point the output block is the bias added to (what the accumulator held before the point,
    plus the second partial product). -/
theorem out_at_second_half_of (c : Dev nD) (t : Fin cfg0.N) (h0 : ¬t.val % 2 = 0) (h1 : t.val % 2 = 1) :
    (outsAt0 m c t.val t.isLt).1
      = k0_pay3 (k0_pay2 (outsAt0 m c (t.val - 1) (Nat.lt_of_le_of_lt (Nat.sub_le _ _) t.isLt)).2 (iblk m c 0 t) (iblk m c 1 t))
          (iblk m c 2 t) := by
  rw [outsAt0_B m c t h0 h1]
  dsimp only
  exact out_second c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t)
    (outsAt0 m c (t.val - 1) (Nat.lt_of_le_of_lt (Nat.sub_le _ _) t.isLt)).2

/-- The output block after a second-half point: both halves accumulated from zero, then the bias. -/
theorem out_at_second_half (c : Dev nD) (t : Fin cfg0.N) (hodd : t.val % 2 = 1) :
    (outsAt0 m c t.val t.isLt).1
      = k0_pay3 (k0_pay2 (k0_pay2 (k0_pay1 (F := F)) (iblk m c 0 (before t)) (iblk m c 1 (before t))) (iblk m c 0 t) (iblk m c 1 t))
          (iblk m c 2 t) := by
  have hne : ¬t.val % 2 = 0 := by omega
  have h0' : (before t).val % 2 = 0 := by rw [before_val]; omega
  have h1' : ¬(before t).val % 2 = 1 := by rw [before_val]; omega
  have hS := acc_at_first_half m c (before t) h0' h1'
  rw [out_at_second_half_of m c t hne hodd]
  exact congrArg (fun z => k0_pay3 (k0_pay2 z (iblk m c 0 t) (iblk m c 1 t)) (iblk m c 2 t)) hS

/-- The block of the left operand staged at `t`, at (p, k): the array at (block row × 1024 + p, block column × 2048 + k). -/
theorem left_block_apply (c : Dev nD) (t : Fin cfg0.N) (p : Fin 1024) (k : Fin 2048) (r : Fin 8192) (κ : Fin 4096)
    (hr : r.val = win0_0.index t 0 * 1024 + p.val) (hκ : κ.val = win0_0.index t 1 * 2048 + k.val) :
    (iblk m c 0 t : Vec F S1024x2048 .bf16) (ix2 p k) = V m c main_v19 (ix2 r κ) := by
  unfold iblk
  rw [View.read_apply]
  show V m c main_v19 _ = V m c main_v19 _
  congr 1
  funext a
  apply Fin.ext
  match a with
  | ⟨0, _⟩ => show win0_0.index t 0 * 1024 + 1 * p.val = r.val; omega
  | ⟨1, _⟩ => show win0_0.index t 1 * 2048 + 1 * k.val = κ.val; omega

/-- The block of the right operand staged at `t`, at (k, q). -/
theorem right_block_apply (c : Dev nD) (t : Fin cfg0.N) (k : Fin 2048) (q : Fin 1024) (κ : Fin 4096) (o : Fin 4096)
    (hκ : κ.val = win0_1.index t 0 * 2048 + k.val) (ho : o.val = win0_1.index t 1 * 1024 + q.val) :
    (iblk m c 1 t : Vec F S2048x1024 .bf16) (ix2 k q) = V m c main_v17 (ix2 κ o) := by
  unfold iblk
  rw [View.read_apply]
  show V m c main_v17 _ = V m c main_v17 _
  congr 1
  funext a
  apply Fin.ext
  match a with
  | ⟨0, _⟩ => show win0_1.index t 0 * 2048 + 1 * k.val = κ.val; omega
  | ⟨1, _⟩ => show win0_1.index t 1 * 1024 + 1 * q.val = o.val; omega

/-- The block of the bias row staged at `t`, at (0, q). -/
theorem bias_block_apply (c : Dev nD) (t : Fin cfg0.N) (q : Fin 1024) (o : Fin 4096)
    (h0 : win0_2.index t 0 = 0) (ho : o.val = win0_2.index t 1 * 1024 + q.val) :
    (iblk m c 2 t : Vec F S1x1024 .f32) (ix2 (0 : Fin 1) q) = V m c main_v20 (ix2 (0 : Fin 1) o) := by
  unfold iblk
  rw [View.read_apply]
  show V m c main_v20 _ = V m c main_v20 _
  congr 1
  funext a
  apply Fin.ext
  match a with
  | ⟨0, _⟩ => show win0_2.index t 0 * 1 + 1 * 0 = 0; omega
  | ⟨1, _⟩ => show win0_2.index t 1 * 1024 + 1 * q.val = o.val; omega

end Cert.KernelIdeal.Found

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.BlockValue.lean ====
/-
  The body's arithmetic read at one entry (p, q) of a 1024 × 1024 block, over the extended reals.

  `zero` is the block of zeros; `accumulate(acc, a, b)` at (p, q) is `acc(p, q) + Σ_k a(p, k) · b(k, q)` over the 2048
  terms of the staged half of the contraction (a matrix product into a zero accumulator is that sum, and a change of
  float format is the identity); `addBias(acc, bias)` at (p, q) is `acc(p, q) + bias(0, q)`. Chained over the two
  halves: `((0 + Σ a₀·b₀) + Σ a₁·b₁) + bias(0, q)`.
-/
import proofs.«154665_j53566832116289_1_alg».proof.Proof.Gen.KernelIdeal.Skeleton
import proofs.«154665_j53566832116289_1_alg».proof.Proof.LibDense
import Idealize.ShloMosaic.Lib.ValueLayout

noncomputable section

open Idealize.ShloMosaic Idealize.ShloMosaic.ValueIdx

namespace Cert.KernelIdeal.Found

open Cert.KernelIdeal Cert.KernelIdeal.Gen
open scoped BigOperators

/-- The zero block is zero everywhere. -/
theorem zero_apply (p q : Fin 1024) : k0_pay1 (F := Ideal) (ix2 p q) = 0 := by
  unfold k0_pay1
  simp only [shapeCast_self]
  exact Ideal.ofBits_zero_f32

/-- One accumulation step at (p, q): what the accumulator held there plus the partial product's 2048 terms. -/
theorem accumulate_apply (acc : Vec Ideal S1024x1024 .f32) (a : Vec Ideal S1024x2048 .bf16) (b : Vec Ideal S2048x1024 .bf16)
    (p q : Fin 1024) :
    k0_pay2 acc a b (ix2 p q) = acc (ix2 p q) + ∑ k : Fin 2048, a (ix2 p k) * b (ix2 k q) := by
  unfold k0_pay2
  simp only [shapeCast_self]
  exact congrArg (acc (ix2 p q) + ·)
    (Cert.LibDense.matmul_zero_plain dot_S1024x2048_S2048x1024_S1024x1024_1_0_0_1_n_n_wf none a b p q)

/-- The write-out at (p, q): the accumulator there plus the bias of column q. -/
theorem addBias_apply (acc : Vec Ideal S1024x1024 .f32) (bias : Vec Ideal S1x1024 .f32) (p q : Fin 1024) :
    k0_pay3 acc bias (ix2 p q) = acc (ix2 p q) + bias (ix2 (0 : Fin 1) q) := by
  unfold k0_pay3
  simp only [shapeCast_self]
  exact congrArg (acc (ix2 p q) + ·) (broadcastTo_1b_ab_apply bias _ p q)

/-- The two halves chained, then the bias: one entry of the output block from the five staged blocks. -/
theorem block_apply (a0 a1 : Vec Ideal S1024x2048 .bf16) (b0 b1 : Vec Ideal S2048x1024 .bf16) (bias : Vec Ideal S1x1024 .f32)
    (p q : Fin 1024) :
    k0_pay3 (k0_pay2 (k0_pay2 (k0_pay1 (F := Ideal)) a0 b0) a1 b1) bias (ix2 p q)
      = ((0 + ∑ k : Fin 2048, a0 (ix2 p k) * b0 (ix2 k q)) + ∑ k : Fin 2048, a1 (ix2 p k) * b1 (ix2 k q))
        + bias (ix2 (0 : Fin 1) q) := by
  rw [addBias_apply, accumulate_apply, accumulate_apply, zero_apply]

end Cert.KernelIdeal.Found

end
-- ==== Proof.StagedWeights.lean ====
/-
  What the region finds in the array of its right operand: the weights with the dense correction added, transposed,
  and converted to the narrower float format.

  The correction is assembled on the host from the sparse triples — negative row and column numbers are shifted up by
  4096, the two columns of numbers laid side by side, and the values scattered additively into a matrix of zeros. Here
  it is one named function of the three arrays; nothing below looks inside it.
-/
import proofs.«154665_j53566832116289_1_alg».proof.Proof.Gen.KernelIdeal.Frame
import Idealize.ShloMosaic.Lib.StableHlo.Run
import Idealize.ShloMosaic.Lib.Tactic

noncomputable section

open Idealize.ShloMosaic Idealize.ShloMosaic.TcCoe Idealize.SL.Sem

namespace Cert.KernelIdeal.Staged

open Cert.KernelIdeal Cert.KernelIdeal.Gen

variable {F : FTy → Type} [FloatOps F]
variable (m : (ℓ : Loc nD τ sig) → Buf (Elt F) ℓ)

/-- The dense [4096, 4096] correction, from the values and the row and column numbers. -/
def correction (vals : FVec F S167772 .f32) (rows cols : IVec S167772 32) : FVec F S4096x4096 .f32 :=
  Host.scatterAdd (F := F) scatter_S4096x4096_S167772x2_S167772_n_01_01_1
    (broadcastInDim S4096x4096 ![] bcast_S_S4096x4096 (constant (F := F) S_ .f32 0x00000000#32))
    (concatenate S167772x2 1
      [⟨S167772x1, broadcastInDim S167772x1 ![0] bcast_S167772_S167772x1_0
          (select (cmpi .slt rows (broadcastInDim S167772 ![] bcast_S_S167772 (constantI S_ 32 0#32)))
            (addi rows (broadcastInDim S167772 ![] bcast_S_S167772 (constantI S_ 32 4096#32))) rows)⟩,
       ⟨S167772x1, broadcastInDim S167772x1 ![0] bcast_S167772_S167772x1_0
          (select (cmpi .slt cols (broadcastInDim S167772 ![] bcast_S_S167772 (constantI S_ 32 0#32)))
            (addi cols (broadcastInDim S167772 ![] bcast_S_S167772 (constantI S_ 32 4096#32))) cols)⟩]
      concatenates_S167772x1_S167772x1_S167772x2_d1)
    vals

set_option maxHeartbeats 4000000 in
/-- The right operand's array at the region's entry. -/
theorem staged_weights (c : Dev nD) :
    (V m c main_v17 : S4096x4096.Idx → Elt F .bf16)
      = truncf .bf16 (transpose S4096x4096 [1, 0]
          (addf (m ((c : Thread nD τ).loc main_arg1))
            (correction (m ((c : Thread nD τ).loc main_arg3)) (m ((c : Thread nD τ).loc main_arg4)) (m ((c : Thread nD τ).loc main_arg5))))
          transposes_S4096x4096_S4096x4096_1_0) bitsLt_bf16_f32 := by
  show StableHlo.after hostOps0 (fun b => m (c, b)) (Proc.devRef .tc main_v17) = _
  after_results
  rfl

end Cert.KernelIdeal.Staged

end
-- ==== Proof.Staged.lean ====
/-
  The three arrays the region stages, read at an index over the extended reals.

  The left operand is `x` with batch and position flattened into one row number (row β·2048 + σ is (β, σ)); the right
  operand at (k, o) is `w[o, k] + d[o, k]` (the corrected weights, transposed); the bias row at (0, o) is `b[o]`. A change
  of float format is the identity on the extended reals, a reshape keeps the row-major position, a transpose swaps the
  two coordinates.
-/
import proofs.«154665_j53566832116289_1_alg».proof.Proof.StagedWeights
import Idealize.ShloMosaic.Lib.Pipeline.Value
import Idealize.ShloMosaic.Lib.ValueIdx

noncomputable section

open Idealize.ShloMosaic Idealize.ShloMosaic.TcCoe Idealize.ShloMosaic.ValueIdx Idealize.SL.Sem

namespace Cert.KernelIdeal.Staged

open Cert.KernelIdeal Cert.KernelIdeal.Gen

section AnyFloat
variable {F : FTy → Type} [FloatOps F]
variable (m : (ℓ : Loc nD τ sig) → Buf (Elt F) ℓ)

/-- The left operand's array at the region's entry: `x` flattened to [8192, 4096] and converted. -/
theorem staged_activations (c : Dev nD) :
    (V m c main_v19 : S8192x4096.Idx → Elt F .bf16)
      = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v19) = _
  after_results
  rfl

/-- The bias row's array at the region's entry: `b` as a [1, 4096] row. -/
theorem staged_bias (c : Dev nD) :
    (V m c main_v20 : S1x4096.Idx → Elt F .f32) = shapeCast S1x4096 (m ((c : Thread nD τ).loc main_arg2)) shapeCasts_S4096_S1x4096 := by
  show StableHlo.after hostOps0 (fun b => m (c, b)) (Proc.devRef .tc main_v20) = _
  after_results
  rfl

end AnyFloat

section AtIdeal
variable (m : (ℓ : Loc nD τ sig) → Buf (Elt Ideal) ℓ)

/-- The argument arrays on core `c` as functions into the extended reals: the activations, the weights, the bias, … -/
abbrev argX (c : Dev nD) : S4x2048x4096.Idx → EReal := m ((c : Thread nD τ).loc main_arg0)
abbrev argW (c : Dev nD) : S4096x4096.Idx → EReal := m ((c : Thread nD τ).loc main_arg1)
abbrev argB (c : Dev nD) : S4096.Idx → EReal := m ((c : Thread nD τ).loc main_arg2)
/-- … and the dense correction assembled from the sparse triples. -/
abbrev argD (c : Dev nD) : S4096x4096.Idx → EReal :=
  correction (F := Ideal) (m ((c : Thread nD τ).loc main_arg3)) (m ((c : Thread nD τ).loc main_arg4)) (m ((c : Thread nD τ).loc main_arg5))

/-- Row β·2048 + σ of the flattened activations, column k, is `x[β, σ, k]`. -/
theorem activations_apply (c : Dev nD) (β : Fin 4) (σ : Fin 2048) (k : Fin 4096) (r : Fin 8192) (hr : r.val = β.val * 2048 + σ.val) :
    (V m c main_v19 : S8192x4096.Idx → EReal) (ix2 r k) = argX m c (ix3 β σ k) := by
  refine (congrFun (staged_activations m c) (ix2 r k)).trans ?_
  show shapeCast S8192x4096 (m ((c : Thread nD τ).loc main_arg0)) shapeCasts_S4x2048x4096_S8192x4096 (ix2 r k) = _
  refine shapeCast_apply _ _ (ix2 r k) (ix3 β σ k) ?_
  rw [Shape.rowMajor_val_three, Shape.rowMajor_val_two]
  show (β.val * 2048 + σ.val) * 4096 + k.val = r.val * 4096 + k.val
  rw [hr]

/-- The staged right operand at (k, o) is the corrected weight `w[o, k] + d[o, k]`. -/
theorem weights_apply (c : Dev nD) (k o : Fin 4096) :
    (V m c main_v17 : S4096x4096.Idx → EReal) (ix2 k o) = argW m c (ix2 o k) + argD m c (ix2 o k) := by
  refine (congrFun (staged_weights m c) (ix2 k o)).trans ?_
  show transpose S4096x4096 [1, 0] (addf (m ((c : Thread nD τ).loc main_arg1))
      (correction (F := Ideal) (m ((c : Thread nD τ).loc main_arg3)) (m ((c : Thread nD τ).loc main_arg4)) (m ((c : Thread nD τ).loc main_arg5))))
      transposes_S4096x4096_S4096x4096_1_0 (ix2 k o) = _
  refine (transpose_apply [1, 0] _ transposes_S4096x4096_S4096x4096_1_0 (ix2 k o) (ix2 o k) (fun b => ?_)).trans rfl
  match b with
  | ⟨0, _⟩ => rfl
  | ⟨1, _⟩ => rfl

/-- The staged bias row at (0, o) is `b[o]`. -/
theorem bias_apply (c : Dev nD) (o : Fin 4096) :
    (V m c main_v20 : S1x4096.Idx → EReal) (ix2 (0 : Fin 1) o) = argB m c (ix1 o) := by
  refine (congrFun (staged_bias m c) (ix2 (0 : Fin 1) o)).trans ?_
  refine shapeCast_apply _ _ (ix2 (0 : Fin 1) o) (ix1 o) ?_
  rw [Shape.rowMajor_val_one, Shape.rowMajor_val_two]
  show o.val = 0 * 4096 + o.val
  omega

end AtIdeal

end Cert.KernelIdeal.Staged

end
-- ==== Proof.Algebra.lean ====
/-
  The algebra that joins the two programs, over the extended reals, with no program in sight.

  Both programs compute, for one output entry, a contraction over 4096 terms of a row of `x` against a row of a weight
  matrix. One side adds the sparse correction `d` to the weights FIRST and contracts once, in two halves of 2048 terms
  accumulated from zero, adding the bias last: `((0 + Σ_lo x·(w + d)) + Σ_hi x·(w + d)) + b`. The other contracts `w` and
  `d` separately: `(Σ x·w + b) + Σ x·d`. They agree because `x·(w + d) = x·w + x·d` whenever `x` and `w` are real
  numbers — for ANY extended real `d`: with `w` real the sum `w + d` is infinite exactly when `d` is, with the sign of
  `d`, so both sides are the same infinity (or, for `x = 0`, both are zero). Everything else is commutativity and
  associativity of `+`, which hold for all extended reals.
-/
import Idealize.ShloMosaic.PureOps.Ideal

namespace Cert.SparseLinear

open scoped BigOperators

/-- The first half of the contraction axis: term `k` of 2048 is term `k` of 4096. -/
def lo (k : Fin 2048) : Fin 4096 := ⟨k.val, by have := k.isLt; omega⟩
/-- The second half: term `k` of 2048 is term `2048 + k` of 4096. -/
def hi (k : Fin 2048) : Fin 4096 := ⟨2048 + k.val, by have := k.isLt; omega⟩

@[simp] theorem lo_val (k : Fin 2048) : (lo k).val = k.val := rfl
@[simp] theorem hi_val (k : Fin 2048) : (hi k).val = 2048 + k.val := rfl

/-- A sum over the 4096 terms is the sum over the first half plus the sum over the second half. -/
theorem sum_halves {M : Type} [AddCommMonoid M] (f : Fin 4096 → M) :
    ∑ k : Fin 4096, f k = ∑ k : Fin 2048, f (lo k) + ∑ k : Fin 2048, f (hi k) := by
  show ∑ k : Fin (2048 + 2048), f k = _
  rw [Fin.sum_univ_add]
  rfl

/-- A real times (a real plus any extended real) distributes. -/
theorem real_mul_add (x w : ℝ) (d : EReal) :
    (x : EReal) * ((w : EReal) + d) = (x : EReal) * (w : EReal) + (x : EReal) * d := by
  induction d using EReal.rec with
  | bot =>
    rw [EReal.add_bot, ← EReal.coe_mul]
    rcases lt_trichotomy x 0 with hx | hx | hx
    · rw [EReal.coe_mul_bot_of_neg hx, EReal.coe_add_top]
    · subst hx; simp
    · rw [EReal.coe_mul_bot_of_pos hx, EReal.add_bot]
  | coe r =>
    rw [← EReal.coe_add, ← EReal.coe_mul, ← EReal.coe_mul, ← EReal.coe_mul, ← EReal.coe_add, mul_add]
  | top =>
    rw [EReal.coe_add_top, ← EReal.coe_mul]
    rcases lt_trichotomy x 0 with hx | hx | hx
    · rw [EReal.coe_mul_top_of_neg hx, EReal.add_bot]
    · subst hx; simp
    · rw [EReal.coe_mul_top_of_pos hx, EReal.coe_add_top]

/-- The two arrangements of one output entry agree when the row of `x` and the row of `w` are real. -/
theorem two_halves_eq_separate (x w d : Fin 4096 → EReal) (b : EReal)
    (hx : ∀ k, ∃ r : ℝ, x k = (r : EReal)) (hw : ∀ k, ∃ r : ℝ, w k = (r : EReal)) :
    ((0 + ∑ k : Fin 2048, x (lo k) * (w (lo k) + d (lo k))) + ∑ k : Fin 2048, x (hi k) * (w (hi k) + d (hi k))) + b
      = (∑ k : Fin 4096, x k * w k + b) + ∑ k : Fin 4096, x k * d k := by
  have h : ∀ k, x k * (w k + d k) = x k * w k + x k * d k := fun k => by
    obtain ⟨r, hr⟩ := hx k
    obtain ⟨s, hs⟩ := hw k
    rw [hr, hs]
    exact real_mul_add r s (d k)
  rw [zero_add, ← sum_halves (fun k => x k * (w k + d k))]
  simp only [h]
  rw [Finset.sum_add_distrib]
  exact add_right_comm _ _ _

end Cert.SparseLinear
-- ==== Proof.Spec.lean ====
/-
  The result both programs are measured against, as ONE function of the argument arrays, index by index.

  `x` is f32[4, 2048, 4096] (batch, position, input feature), `w` f32[4096, 4096] (output feature, input feature),
  `b` f32[4096] (output feature), and `d` the dense [4096, 4096] correction assembled from the sparse triples (whatever it
  holds: nothing here looks inside it). Entry `(β, σ, o)` of the result is
      (Σ_k x[β, σ, k] · w[o, k]  +  b[o])  +  Σ_k x[β, σ, k] · d[o, k].
-/
import proofs.«154665_j53566832116289_1_alg».proof.Proof.Algebra
import Idealize.ShloMosaic.Lib.ValueIdx

noncomputable section

namespace Cert.SparseLinear

open Idealize.ShloMosaic Idealize.ShloMosaic.ValueIdx
open scoped BigOperators

/-- f32[4, 2048, 4096]: the activations and the result. -/
abbrev SAct : Shape := ⟨3, ![4, 2048, 4096]⟩
/-- f32[4096, 4096]: the weights and the dense correction. -/
abbrev SWt : Shape := ⟨2, ![4096, 4096]⟩
/-- f32[4096]: the bias. -/
abbrev SBias : Shape := ⟨1, ![4096]⟩

/-- Entry `(β, σ, o)` of the result, from the arrays. -/
def G (x : SAct.Idx → EReal) (w : SWt.Idx → EReal) (b : SBias.Idx → EReal) (d : SWt.Idx → EReal) : SAct.Idx → EReal :=
  fun i => (∑ k : Fin 4096, x (ix3 (i 0) (i 1) k) * w (ix2 (i 2) k) + b (ix1 (i 2)))
    + ∑ k : Fin 4096, x (ix3 (i 0) (i 1) k) * d (ix2 (i 2) k)

theorem G_apply (x : SAct.Idx → EReal) (w : SWt.Idx → EReal) (b : SBias.Idx → EReal) (d : SWt.Idx → EReal)
    (β : Fin 4) (σ : Fin 2048) (o : Fin 4096) :
    G x w b d (ix3 β σ o) = (∑ k : Fin 4096, x (ix3 β σ k) * w (ix2 o k) + b (ix1 o)) + ∑ k : Fin 4096, x (ix3 β σ k) * d (ix2 o k) := rfl

/-- The same entry in the other arrangement — the correction added to the weights first, the contraction taken in two
    halves accumulated from zero, the bias last — when `x` and `w` hold real numbers. -/
theorem G_eq_two_halves (x : SAct.Idx → EReal) (w : SWt.Idx → EReal) (b : SBias.Idx → EReal) (d : SWt.Idx → EReal)
    (hx : ∀ i, ∃ r : ℝ, x i = (r : EReal)) (hw : ∀ i, ∃ r : ℝ, w i = (r : EReal))
    (β : Fin 4) (σ : Fin 2048) (o : Fin 4096) :
    ((0 + ∑ k : Fin 2048, x (ix3 β σ (lo k)) * (w (ix2 o (lo k)) + d (ix2 o (lo k))))
        + ∑ k : Fin 2048, x (ix3 β σ (hi k)) * (w (ix2 o (hi k)) + d (ix2 o (hi k)))) + b (ix1 o)
      = G x w b d (ix3 β σ o) :=
  two_halves_eq_separate (fun k => x (ix3 β σ k)) (fun k => w (ix2 o k)) (fun k => d (ix2 o k)) (b (ix1 o))
    (fun k => hx _) (fun k => hw _)

end Cert.SparseLinear

end
-- ==== Proof.Whole.lean ====
/-
  The region's output array, whole: entry (r, o) of the [8192, 4096] result is the specification's entry
  (r / 2048, r % 2048, o).

  Output block (I, J) — rows 1024·I …, columns 1024·J … — is written back once, after the second half of its
  contraction. Its entry (p, q) is the bias of column o = 1024·J + q added to the two halves, accumulated from zero, of
  the contraction of row r = 1024·I + p of the flattened activations against column o of the corrected, transposed
  weights; the first half was staged at the point before. With every entry of `x` and `w` a real number this is the
  specification's entry (the correction may be any extended real). The 32 output blocks tile the array, so every
  entry is written.
-/
import proofs.«154665_j53566832116289_1_alg».proof.Proof.Points
import proofs.«154665_j53566832116289_1_alg».proof.Proof.BlockValue
import proofs.«154665_j53566832116289_1_alg».proof.Proof.Staged
import proofs.«154665_j53566832116289_1_alg».proof.Proof.Spec

noncomputable section

open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen Cert.KernelIdeal.Found Cert.KernelIdeal.Staged Cert.SparseLinear
open scoped BigOperators

variable (m : (ℓ : Loc nD τ sig) → Buf (Elt Ideal) ℓ)

/-- The four arrays the specification is a function of, on core `c`. -/
abbrev xs (c : Dev nD) : SAct.Idx → EReal := argX m c
abbrev ws (c : Dev nD) : SWt.Idx → EReal := argW m c
abbrev bs (c : Dev nD) : SBias.Idx → EReal := argB m c
abbrev ds (c : Dev nD) : SWt.Idx → EReal := argD m c

/-- Row `r` of the flattened activations is batch `r / 2048`, … -/
def batchOf (r : Fin 8192) : Fin 4 := ⟨r.val / 2048, by have := r.isLt; omega⟩
/-- … position `r % 2048`. -/
def posOf (r : Fin 8192) : Fin 2048 := ⟨r.val % 2048, Nat.mod_lt _ (by decide)⟩

theorem row_split (r : Fin 8192) : r.val = (batchOf r).val * 2048 + (posOf r).val := by
  show r.val = r.val / 2048 * 2048 + r.val % 2048
  omega

/-- The region's output array as one function of the arguments. -/
def flat (c : Dev nD) : S8192x4096.Idx → EReal :=
  fun i => G (xs m c) (ws m c) (bs m c) (ds m c) (ix3 (batchOf (i 0)) (posOf (i 0)) (i 1))

/-- The printed index maps at a second-half point `t` and at the point before it, decided over the grid: the
    operands' blocks are on the output block's row and column, the contraction's first half before, its second half at `t`. -/
theorem index_facts : ∀ t : Fin cfg0.N, t.val % 2 = 1 →
    win0_3.index t 0 ≤ 7 ∧ win0_3.index t 1 ≤ 3
    ∧ win0_0.index t 0 = win0_3.index t 0 ∧ win0_0.index t 1 = 1
    ∧ win0_1.index t 0 = 1 ∧ win0_1.index t 1 = win0_3.index t 1
    ∧ win0_2.index t 0 = 0 ∧ win0_2.index t 1 = win0_3.index t 1
    ∧ win0_0.index (before t) 0 = win0_3.index t 0 ∧ win0_0.index (before t) 1 = 0
    ∧ win0_1.index (before t) 0 = 0 ∧ win0_1.index (before t) 1 = win0_3.index t 1 :=
  (by decide +kernel : ∀ t : Fin grid0.N, _)

/-- Every output block is some second-half point's. -/
theorem index_onto : ∀ (q0 : Fin 8) (q1 : Fin 4), ∃ t : Fin cfg0.N, t.val % 2 = 1 ∧ win0_3.index t 0 = q0.val ∧ win0_3.index t 1 = q1.val :=
  (by decide +kernel : ∀ (q0 : Fin 8) (q1 : Fin 4), ∃ t : Fin grid0.N, _)

/-- One entry of an output block against the specification. -/
theorem entry_eq (hx : ∀ c i, ∃ r : ℝ, xs m c i = (r : EReal)) (hw : ∀ c i, ∃ r : ℝ, ws m c i = (r : EReal))
    (c : Dev nD) (t : Fin cfg0.N) (hodd : t.val % 2 = 1) (y : S1024x1024.Idx) (i : S8192x4096.Idx)
    (h0 : (i 0).val = win0_3.index t 0 * 1024 + (y 0).val) (h1 : (i 1).val = win0_3.index t 1 * 1024 + (y 1).val) :
    k0_pay3 (k0_pay2 (k0_pay2 (k0_pay1 (F := Ideal)) (iblk m c 0 (before t)) (iblk m c 1 (before t))) (iblk m c 0 t) (iblk m c 1 t))
        (iblk m c 2 t) y = flat m c i := by
  obtain ⟨p, q, rfl⟩ : ∃ (p q : Fin 1024), y = ix2 p q := ⟨y 0, y 1, eq_ix2 y⟩
  obtain ⟨r, o, rfl⟩ : ∃ (r : Fin 8192) (o : Fin 4096), i = ix2 r o := ⟨i 0, i 1, eq_ix2 i⟩
  obtain ⟨bI, bJ, e00, e01, e10, e11, e20, e21, p00, p01, p10, p11⟩ := index_facts t hodd
  have h0' : r.val = win0_3.index t 0 * 1024 + p.val := h0
  have h1' : o.val = win0_3.index t 1 * 1024 + q.val := h1
  refine (block_apply (iblk m c 0 (before t)) (iblk m c 0 t) (iblk m c 1 (before t)) (iblk m c 1 t) (iblk m c 2 t) p q).trans ?_
  have a0 : ∀ k : Fin 2048, (iblk m c 0 (before t) : Vec Ideal S1024x2048 .bf16) (ix2 p k)
      = xs m c (ix3 (batchOf r) (posOf r) (lo k)) := fun k =>
    (left_block_apply m c (before t) p k r (lo k) (by omega) (by have := lo_val k; omega)).trans
      (activations_apply m c (batchOf r) (posOf r) (lo k) r (row_split r))
  have a1 : ∀ k : Fin 2048, (iblk m c 0 t : Vec Ideal S1024x2048 .bf16) (ix2 p k)
      = xs m c (ix3 (batchOf r) (posOf r) (hi k)) := fun k =>
    (left_block_apply m c t p k r (hi k) (by omega) (by have := hi_val k; omega)).trans
      (activations_apply m c (batchOf r) (posOf r) (hi k) r (row_split r))
  have b0 : ∀ k : Fin 2048, (iblk m c 1 (before t) : Vec Ideal S2048x1024 .bf16) (ix2 k q)
      = ws m c (ix2 o (lo k)) + ds m c (ix2 o (lo k)) := fun k =>
    (right_block_apply m c (before t) k q (lo k) o (by have := lo_val k; omega) (by omega)).trans
      (weights_apply m c (lo k) o)
  have b1 : ∀ k : Fin 2048, (iblk m c 1 t : Vec Ideal S2048x1024 .bf16) (ix2 k q)
      = ws m c (ix2 o (hi k)) + ds m c (ix2 o (hi k)) := fun k =>
    (right_block_apply m c t k q (hi k) o (by have := hi_val k; omega) (by omega)).trans
      (weights_apply m c (hi k) o)
  have bb : (iblk m c 2 t : Vec Ideal S1x1024 .f32) (ix2 (0 : Fin 1) q) = bs m c (ix1 o) :=
    (bias_block_apply m c t q o e20 (by omega)).trans (bias_apply m c o)
  simp only [a0, a1, b0, b1, bb]
  exact G_eq_two_halves (xs m c) (ws m c) (bs m c) (ds m c) (hx c) (hw c) (batchOf r) (posOf r) o

/-- What a second-half point writes back is its block of `flat`. -/
theorem flushed_eq (hx : ∀ c i, ∃ r : ℝ, xs m c i = (r : EReal)) (hw : ∀ c i, ∃ r : ℝ, ws m c i = (r : EReal))
    (c : Dev nD) (t : Fin cfg0.N) (hf : (cfg0.win 3).flush t = true) :
    (dats m 0 c).flushed 3 t = ((cfg0.win 3).blk t).view.read (Elt Ideal) (flat m c) := by
  have hodd : t.val % 2 = 1 := (flush0_3 t).mp hf
  show (cfg0.win 3).cut (grid0.coords t) ((dats m 0 c).after 3 t) = _
  rw [after0_3, out_at_second_half m c t hodd]
  funext y
  rw [View.read_apply]
  refine entry_eq m hx hw c t hodd ((cfg0.win 3).xinj (grid0.coords t) y) _ ?_ ?_
  · show win0_3.index t 0 * 1024 + 1 * (y 0).val = win0_3.index t 0 * 1024 + (y 0).val
    omega
  · show win0_3.index t 1 * 1024 + 1 * (y 1).val = win0_3.index t 1 * 1024 + (y 1).val
    omega

/-- An index of the array is in point `t`'s output block iff each coordinate is in the block's range on its axis. -/
theorem mem_blk (t : Fin cfg0.N) (i : S8192x4096.Idx) :
    i ∈ ((cfg0.win 3).blk t).view.set
      ↔ ∀ a : Fin 2, win0_3.index t a * S1024x1024.size a ≤ (i a).val ∧ (i a).val < win0_3.index t a * S1024x1024.size a + S1024x1024.size a := by
  show i ∈ ((View.whole main_v21).slice (win0_3.rect t)).set ↔ _
  rw [View.set_slice_whole, Rect.mem_set_unit]
  exact Iff.rfl

/-- The region's output array after the run. -/
theorem final (hx : ∀ c i, ∃ r : ℝ, xs m c i = (r : EReal)) (hw : ∀ c i, ∃ r : ℝ, ws m c i = (r : EReal)) (c : Dev nD) :
    (dats m 0 c).arrAt 3 cfg0.N = flat m c :=
  (dats m 0 c).arrAt_eq_of_cover 3 (flat m c) (fun t hf => flushed_eq m hx hw c t hf) fun i => by
    have hi0 : (i 0).val < 8192 := (i 0).isLt
    have hi1 : (i 1).val < 4096 := (i 1).isLt
    obtain ⟨t, hodd, q0, q1⟩ := index_onto ⟨(i 0).val / 1024, by omega⟩ ⟨(i 1).val / 1024, by omega⟩
    have q0' : win0_3.index t 0 = (i 0).val / 1024 := q0
    have q1' : win0_3.index t 1 = (i 1).val / 1024 := q1
    refine ⟨t, (flush0_3 t).mpr hodd, ?_⟩
    rw [mem_blk]
    intro a
    match a with
    | ⟨0, _⟩ =>
      show win0_3.index t 0 * 1024 ≤ (i 0).val ∧ (i 0).val < win0_3.index t 0 * 1024 + 1024
      omega
    | ⟨1, _⟩ =>
      show win0_3.index t 1 * 1024 ≤ (i 1).val ∧ (i 1).val < win0_3.index t 1 * 1024 + 1024
      omega

end Cert.KernelIdeal.Whole

end
-- ==== Proof.KernelRun.lean ====
/-
  The kernel program's run, read: its result is the specification, its arguments are unchanged.

  After the region the program reshapes the [8192, 4096] output back to [4, 2048, 4096]: entry (β, σ, o) is the
  flattened entry (β·2048 + σ, o), whose batch and position are β and σ again.
-/
import proofs.«154665_j53566832116289_1_alg».proof.Proof.Whole
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen Cert.SparseLinear

/-- The program's result is the reshape of whatever the region's output array ends holding. -/
theorem tail_result {F : FTy → Type} [FloatOps F] (m : (ℓ : Loc nD τ sig) → Buf (Elt F) ℓ) (c : Dev nD)
    (A : S8192x4096.Idx → Elt F .f32) (hA : (dats m 0 c).arrAt 3 cfg0.N = A) :
    (Pipeline.afterTail₀ cfgs (dats m) 0 (V0 m) [hostOps1] c main_v22 : S4x2048x4096.Idx → Elt F .f32)
      = shapeCast S4x2048x4096 A shapeCasts_S8192x4096_S4x2048x4096 := by
  unfold Pipeline.afterTail₀
  show StableHlo.after hostOps1 _ (Proc.devRef .tc main_v22) = _
  after_results
  exact congrArg (fun B : S8192x4096.Idx → Elt F .f32 => shapeCast S4x2048x4096 B shapeCasts_S8192x4096_S4x2048x4096)
    ((Pipeline.withArrays_arr spec0 launch0.win.arr_inj c _ _ 3).trans hA)

variable (m : (ℓ : Loc nD τ sig) → Buf (Elt Ideal) ℓ) (ρ : Dev nD → PrngReg)

/-- The program's result over the extended reals: the specification of its arguments. -/
theorem result_eq (hx : ∀ c i, ∃ r : ℝ, xs m c i = (r : EReal)) (hw : ∀ c i, ∃ r : ℝ, ws m c i = (r : EReal)) (c : Dev nD) :
    (Pipeline.afterTail₀ cfgs (dats m) 0 (V0 m) [hostOps1] c main_v22 : S4x2048x4096.Idx → EReal)
      = G (xs m c) (ws m c) (bs m c) (ds m c) := by
  refine (tail_result m c (flat m c) (final m hx hw c)).trans ?_
  funext i
  obtain ⟨β, σ, o, rfl⟩ : ∃ (β : Fin 4) (σ : Fin 2048) (o : Fin 4096), i = ix3 β σ o := ⟨i 0, i 1, i 2, eq_ix3 i⟩
  have hlt : β.val * 2048 + σ.val < 8192 := by have := β.isLt; have := σ.isLt; omega
  refine (shapeCast_apply (flat m c) shapeCasts_S8192x4096_S4x2048x4096 (ix3 β σ o) (ix2 ⟨β.val * 2048 + σ.val, hlt⟩ o) ?_).trans ?_
  · rw [Shape.rowMajor_val_two, Shape.rowMajor_val_three]
    rfl
  · have hb : batchOf ⟨β.val * 2048 + σ.val, hlt⟩ = β :=
      Fin.ext (by show (β.val * 2048 + σ.val) / 2048 = β.val; have := σ.isLt; omega)
    have hp : posOf ⟨β.val * 2048 + σ.val, hlt⟩ = σ :=
      Fin.ext (by show (β.val * 2048 + σ.val) % 2048 = σ.val; have := σ.isLt; omega)
    show G (xs m c) (ws m c) (bs m c) (ds m c) (ix3 (batchOf ⟨β.val * 2048 + σ.val, hlt⟩) (posOf ⟨β.val * 2048 + σ.val, hlt⟩) o) = _
    rw [hb, hp]

/-- Every weakly fair execution of the kernel program terminates with the result at the specification and the
    arguments as launched. -/
theorem run (hx : ∀ c i, ∃ r : ℝ, xs m c i = (r : EReal)) (hw : ∀ c i, ∃ r : ℝ, ws m c i = (r : EReal)) :
    θ_run defs (onTc (τ := τ) (main (F := Ideal))) ⟨m, fun _ => 0, ρ⟩ fun r => ∀ c : Dev nD,
      r.2.mem ((c.tc : Thread nD τ).loc main_v22) = G (xs m c) (ws m c) (bs m c) (ds m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v22 (Pipeline.mem_restRefs_of main_v22 (by decide) (by decide))).trans (result_eq m hx hw c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Whole

end
-- ==== Proof.RefSpec.lean ====
/-
  The reference computes the specification. Its result at (β, σ, o) is
  `(Σ_k x[β,σ,k]·w[o,k] + b[o]) + Σ_k x[β,σ,k]·d[o,k]`, read off its operations one at a time: the two contractions
  over the last axis of `x` against the last axis of `w` and of the dense correction `d`, the bias spread over batch and
  position, two additions. The correction is whatever the reference's scatter stage holds; it is not opened.
-/
import proofs.«154665_j53566832116289_1_alg».proof.Proof.Gen.ReferenceIdeal.Read
import proofs.«154665_j53566832116289_1_alg».proof.Proof.Spec

noncomputable section

open Idealize.ShloMosaic Idealize.ShloMosaic.ValueIdx

namespace Cert.ReferenceIdeal.Bridge

open Cert.ReferenceIdeal Cert.ReferenceIdeal.Read Cert.SparseLinear
open scoped BigOperators

/-- The reference's last stage is `G` of the arguments and of its own dense correction. -/
theorem reference_is_spec (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S167772, .f32⟩ : BufTy).Contents (Elt Ideal))
    (x4 x5 : (⟨S167772, .i32⟩ : BufTy).Contents (Elt Ideal)) :
    val_main_v20 (F := Ideal) x0 x1 x2 x3 x4 x5 = G x0 x1 x2 (val_main_v18 (F := Ideal) x3 x4 x5) := by
  funext i
  obtain ⟨β, σ, o, rfl⟩ : ∃ (β : Fin 4) (σ : Fin 2048) (o : Fin 4096), i = ix3 β σ o := ⟨i 0, i 1, i 2, eq_ix3 i⟩
  have el0 : ∀ k, lidx_main_v0 (ix3 β σ o) k = ix3 β σ k := fun k => funext fun a => by
    match a with | ⟨0, _⟩ => rfl | ⟨1, _⟩ => rfl | ⟨2, _⟩ => rfl
  have er0 : ∀ k, ridx_main_v0 (ix3 β σ o) k = ix2 o k := fun k => funext fun a => by
    match a with | ⟨0, _⟩ => rfl | ⟨1, _⟩ => rfl
  have el19 : ∀ k, lidx_main_v19 (ix3 β σ o) k = ix3 β σ k := fun k => funext fun a => by
    match a with | ⟨0, _⟩ => rfl | ⟨1, _⟩ => rfl | ⟨2, _⟩ => rfl
  have er19 : ∀ k, ridx_main_v19 (ix3 β σ o) k = ix2 o k := fun k => funext fun a => by
    match a with | ⟨0, _⟩ => rfl | ⟨1, _⟩ => rfl
  have eb : idx_main_v1 (idx_main_v2 (ix3 β σ o)) = ix1 o := funext fun a => by
    match a with | ⟨0, _⟩ => rfl
  rw [val_main_v20_apply, val_main_v3_apply, val_main_v0_apply, val_main_v2_apply, val_main_v1_apply, val_main_v19_apply,
    G_apply]
  simp only [el0, er0, el19, er19, eb, Ideal.addf_def]

end Cert.ReferenceIdeal.Bridge

end
-- ==== Proof.Finite.lean ====
/-
  Finite inputs are real numbers. On the extended reals a float entry `x` passes the test
  `|x| < +∞` exactly when it is neither `-∞` nor `+∞`, that is, when it is a real number; and an
  array passes `all (|a| < +∞)` exactly when every one of its entries does.
-/
import proofs.«154665_j53566832116289_1_alg».proof.Pre_finite_inputs
import Idealize.ShloMosaic.PureOps.Ideal
import Idealize.ShloMosaic.Lib.ReduceAll
import Idealize.ShloMosaic.Lib.ValueIdx

namespace Cert.SparseLinear

open Idealize.ShloMosaic

/-- A truth value written as a one-bit word is the word `1` exactly when it is true. -/
theorem ofBool_eq_one_iff {b : Bool} : BitVec.ofBool b = 1#1 ↔ b = true := by cases b <;> decide

/-- The single-precision word `0x7F800000` denotes `+∞`. -/
theorem ofBits_inf : Ideal.ofBits .f32 0x7F800000#32 = (⊤ : EReal) := by
  simp [Ideal.ofBits, Ideal.ieee]

/-- An extended real whose absolute value `max x (-x)` lies below `+∞` is a real number:
    at `-∞` and at `+∞` the absolute value is `+∞` itself. -/
theorem real_of_abs_lt_top (x : EReal) (h : max x (-x) < ⊤) : ∃ r : ℝ, x = (r : EReal) := by
  induction x using EReal.rec with
  | bot => simp at h
  | coe r => exact ⟨r, rfl⟩
  | top => simp at h

/-- The element test read back: `|x| < +∞` answering `1` makes `x` a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  have h' : BitVec.ofBool (decide (max x (-x) < Ideal.ofBits .f32 0x7F800000#32)) = 1#1 := h
  rw [ofBits_inf, ofBool_eq_one_iff, decide_eq_true_eq] at h'
  exact real_of_abs_lt_top x h'

/-- The one index of a rank-0 shape: any two indices agree, there being no axis to differ on. -/
instance subsingleton_scalar_idx : Subsingleton Cert.Pre_finite_inputs.S_.Idx := ⟨fun a b => funext fun d => d.elim0⟩

/-- `all (|a| < +∞)` read back, for an array of any shape: if the conjunction over all axes of the
    element tests is `1`, every entry of `a` is a real number. -/
theorem real_of_all_finite {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a)
            (broadcastInDim s ![] hb (constant Cert.Pre_finite_inputs.S_ .f32 0x7F800000#32)))
          (constantI Cert.Pre_finite_inputs.S_ 1 1#1) hr hu ValueIdx.ix0 = 1#1) :
    ∀ i, ∃ r : ℝ, a i = (r : EReal) := fun i =>
  real_of_cmp (a i) (Host.reduce_andi_all _ _ hr hu ValueIdx.ix0 e i)

/-- The precondition makes every entry of the first two arrays a real number: it is the conjunction
    of the four `all (|a| < +∞)` tests, one per float array, so each of them answers `1`. -/
theorem real_of_finite_inputs [Cert.Pre_finite_inputs.Facts]
    (a0 : FVec Ideal Cert.Pre_finite_inputs.S4x2048x4096 .f32) (a1 : FVec Ideal Cert.Pre_finite_inputs.S4096x4096 .f32)
    (a2 : FVec Ideal Cert.Pre_finite_inputs.S4096 .f32) (a3 : FVec Ideal Cert.Pre_finite_inputs.S167772 .f32)
    (a4 a5 : IVec Cert.Pre_finite_inputs.S167772 32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn, Cert.Pre_finite_inputs.fn_part1, Idealize.ShloMosaic.andi] at h0
  obtain ⟨h012, -⟩ := IntOp.andi_eq_one.1 h0
  obtain ⟨h01, -⟩ := IntOp.andi_eq_one.1 h012
  obtain ⟨e0, e1⟩ := IntOp.andi_eq_one.1 h01
  exact ⟨real_of_all_finite a0 _ _ _ e0, real_of_all_finite a1 _ _ _ e1⟩

end Cert.SparseLinear
-- ==== Proof.lean ====
/-
  A dense linear layer with a sparse additive correction of its weights, computed two ways.

  The kernel program assembles the correction `d` as a dense matrix, adds it to the weights `w`, and computes
  `x · (w + d)ᵀ + b` with a tiled matrix product whose contraction is taken in two halves accumulated from zero, the
  bias added at the end. The reference computes `(x · wᵀ + b) + x · dᵀ`, contracting the weights and the correction
  separately. Over the extended reals the two results are equal entry by entry when the inputs are finite: for real
  `x` and `w`, `x·(w + d) = x·w + x·d` whatever extended real `d` is, and the rest is regrouping of sums. The correction
  is the same function of the sparse triples on both sides and is never opened.

  The three frames are the generated ones (the reference's is its generated run with the result dropped); the ideal
  pass rewrote nothing, so the kernel's idealization is its own text and `preserves` is trivial; `algebraic` puts the
  kernel's run, read as the specification of its arguments, beside the reference's.
-/
import proofs.«154665_j53566832116289_1_alg».proof.Defs
import proofs.«154665_j53566832116289_1_alg».proof.Proof.Gen.Kernel
import proofs.«154665_j53566832116289_1_alg».proof.Proof.Gen.Kernel.Frame
import proofs.«154665_j53566832116289_1_alg».proof.Proof.Gen.KernelIdeal
import proofs.«154665_j53566832116289_1_alg».proof.Proof.Gen.KernelIdeal.Frame
import proofs.«154665_j53566832116289_1_alg».proof.Proof.Gen.ReferenceIdeal
import proofs.«154665_j53566832116289_1_alg».proof.Proof.Gen.ReferenceIdeal.Run
import proofs.«154665_j53566832116289_1_alg».proof.Proof.Gen.ReferenceIdeal.Read
import proofs.«154665_j53566832116289_1_alg».proof.Proof.Gen.Pre_finite_inputs
import proofs.«154665_j53566832116289_1_alg».proof.Proof.KernelRun
import proofs.«154665_j53566832116289_1_alg».proof.Proof.RefSpec
import proofs.«154665_j53566832116289_1_alg».proof.Proof.Finite
import Idealize.ShloMosaic.Adequacy
import Idealize.ShloMosaic.Init

noncomputable section

namespace Cert.Proof

open Idealize.ShloMosaic Idealize.ShloMosaic.TcCoe Idealize.SL.Sem
open Cert.SparseLinear Cert.KernelIdeal.Whole

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification of the (agreeing) arguments: the kernel by its run read block by block,
    the reference by its operations read one at a time; the inputs' finiteness makes `x` and `w` real. -/
theorem algebraic : Cert.algebraic_KernelIdeal_ReferenceIdeal := by
  intro m ρ m' ρ' hpre hagree
  have hfin := fun c => real_of_finite_inputs _ _ _ _ _ _ (hpre c)
  have hx : ∀ c i, ∃ r : ℝ, xs m c i = (r : EReal) := fun c => (hfin c).1
  have hw : ∀ c i, ∃ r : ℝ, ws m c i = (r : EReal) := fun c => (hfin c).2
  refine ⟨fun c => G (xs m c) (ws m c) (bs m c) (ds m c), Cert.KernelIdeal.Whole.run m ρ hx hw, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v20_eq _ _ _ _ _ _)).trans ?_
  rw [Cert.ReferenceIdeal.Bridge.reference_is_spec, (hagree c).1, (hagree c).2.1, (hagree c).2.2.1, (hagree c).2.2.2.1,
    (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
